-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 63
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S1x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call0_cst : Ref sig .tc := ⟨.hbm, 78, rfl⟩
abbrev main_call0_v0 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The two-stage program's run with its result named.

  The program is four segments: host operations, the first tiled stage (linear part and the two running column
  sums), host operations (mean, variance, reciprocal standard deviation), the second tiled stage (normalise and
  clamp).  Every weakly fair execution terminates without fault; the result buffer ends at what the second stage's
  write-backs leave of its output window, and the arguments end as launched.
-/
import proofs.«115379_j62526133895859_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second stage's output window. -/
theorem result_ref : Pipeline.arrRef spec1 5 = main_v43 := rfl

set_option backward.isDefEq.respectTransparency.types false in
/-- The run: termination without fault, the result at the fold of the second stage's write-backs, the arguments
    unchanged. -/
theorem run : θ_run defs (onTc (τ := τ) (main (F := F))) ⟨m, fun _ => 0, ρ⟩ (fun r => ∀ c : Dev nD,
      r.2.mem ((c.tc : Thread nD τ).loc main_v43) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v43 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.Payload.lean ====
/-
  The arithmetic of the two tiled stages, entry by entry, on the extended reals.

  First stage, on a block of 5000 rows: the linear part at (p, q) is
      (Σ_c x[p,c]·ws[c,q]) + bs[0,q] + (Σ_c nb[p,c]·wn[c,q]) + bn[0,q]
  (a matrix product into a zero accumulator is the plain sum of products); each of the two running column sums
  becomes its previous value plus the block's column sum (of the linear part, and of its square); at the first block
  both running sums are first set to zero.  Second stage: at (p, q) the normalised value
      max ((v[p,q] − mu[0,q])·is[0,q]·g[0,q] + b[0,q]) 0.
-/
import proofs.«115379_j62526133895859_1_alg».proof.Proof.Gen.KernelIdeal.Skeleton
import proofs.«115379_j62526133895859_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- A 5000×128 by 128×128 product into the zero accumulator at (p, q): the sum over c of A[p,c]·B[c,q]. -/
theorem mm (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ c : Fin 128, A (ix2 p c) * B (ix2 c q) :=
  Cert.LibPlainDot.matmul_zero_apply dot_S5000x128_S128x128_S5000x128_1_0_0_1_n_n_wf none A B p q

/-- The second stage's value at (p, q). -/
theorem norm_apply (x0 : Vec Ideal S5000x128 .f32) (x1 x2 x3 x4 : Vec Ideal S1x128 .f32) (p : Fin 5000) (q : Fin 128) :
    k1_pay1 x0 x1 x2 x3 x4 (ix2 p q)
      = max ((x0 (ix2 p q) - x1 (ix2 0 q)) * x2 (ix2 0 q) * x3 (ix2 0 q) + x4 (ix2 0 q)) 0 := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rw [broadcast_apply]
  show max _ (Ideal.ofBits .f32 0x00000000#32) = _
  rw [Ideal.ofBits_zero_f32]

/-- The linear part at (p, q). -/
theorem lin_apply (x nb : Vec Ideal S5000x128 .f32) (ws wn : Vec Ideal S128x128 .f32) (bs bn : Vec Ideal S1x128 .f32) (p : Fin 5000) (q : Fin 128) :
    k0_pay4 x nb ws wn bs bn (ix2 p q)
      = (∑ c : Fin 128, x (ix2 p c) * ws (ix2 c q)) + bs (ix2 0 q) + (∑ c : Fin 128, nb (ix2 p c) * wn (ix2 c q)) + bn (ix2 0 q) := by
  unfold k0_pay4
  simp only [shapeCast_self]
  rw [addf_apply, addf_apply, addf_apply, broadcastTo_1b_ab_apply, broadcastTo_1b_ab_apply, mm, mm]
  rfl

/-- A column sum of a block: the lane reduction over the row axis at channel q. -/
theorem colsum (src : FVec Ideal S5000x128 .f32) (hacc : (0x00000000#32 : BitVec 32) = 0x00000000#32) (q : Fin 128) :
    multiReduction .add [0] S128 src 0x00000000#32 reduces_S5000x128_S128 (.inl rfl) hacc (ix1 q) = ∑ p : Fin 5000, src (ix2 p q) := by
  refine (Ideal.multiReduction_add_single src 0x00000000#32 reduces_S5000x128_S128 (.inl rfl) hacc (ix1 q)).trans ?_
  refine Finset.sum_congr rfl fun p _ => congrArg src ?_
  funext a
  match a with
  | ⟨0, _⟩ => rfl
  | ⟨1, _⟩ => rfl

/-- The first block resets the running sum … -/
theorem zero2 (q : Fin 128) : k0_pay2 (F := Ideal) (ix2 0 q) = 0 := by
  unfold k0_pay2
  show Ideal.ofBits .f32 0x00000000#32 = 0
  exact Ideal.ofBits_zero_f32

/-- … and the running sum of squares. -/
theorem zero3 (q : Fin 128) : k0_pay3 (F := Ideal) (ix2 0 q) = 0 := by
  unfold k0_pay3
  show Ideal.ofBits .f32 0x00000000#32 = 0
  exact Ideal.ofBits_zero_f32

/-- The running column sum after a block. -/
theorem sum_apply (x nb : Vec Ideal S5000x128 .f32) (ws wn : Vec Ideal S128x128 .f32) (bs bn acc : Vec Ideal S1x128 .f32) (q : Fin 128) :
    k0_pay5 x nb ws wn bs bn acc (ix2 0 q) = acc (ix2 0 q) + ∑ p : Fin 5000, k0_pay4 x nb ws wn bs bn (ix2 p q) := by
  unfold k0_pay5
  simp only [shapeCast_self]
  rw [addf_apply, shapeCast_a_1a_apply, colsum]

/-- The running column sum of squares after a block. -/
theorem sumsq_apply (o : FVec Ideal S5000x128 .f32) (acc : Vec Ideal S1x128 .f32) (q : Fin 128) :
    k0_pay1 o acc (ix2 0 q) = acc (ix2 0 q) + ∑ p : Fin 5000, o (ix2 p q) * o (ix2 p q) := by
  unfold k0_pay1
  simp only [shapeCast_self]
  rw [addf_apply, shapeCast_a_1a_apply, colsum]
  rfl

end Cert.KernelIdeal.Payload
end
-- ==== Proof.Spec.lean ====
/-
  The function both programs compute, written once over the extended reals.

  A graph layer over N = 100000 nodes with C = 128 channels.  With x the node features and nm the mean of each
  node's neighbours' features, the linear part at node r and channel j is

      lin r j = (Σ_k x r k · ws j k) + bs j + (Σ_k nm r k · wn j k) + bn j,

  and the result is batch normalisation over the N rows followed by max(·, 0):

      out r j = max ((lin r j − μ j) · rsqrt (σ² j + ε) · γ j + β j) 0,   μ j = (Σ_r lin r j) / N.

  The two programs differ in how they reach μ and σ²: one adds the rows up in 20 blocks of 5000 and takes
  σ² = (Σ_r lin² ) / N − μ², the other sums all N rows at once and takes σ² = (Σ_r (lin − μ)²) / N.  The first
  form is the one defined here (`layer`); that it equals the second on real-valued data is Algebra.lean.
-/
import Idealize.ShloMosaic.PureOps.Ideal
import Mathlib.Algebra.BigOperators.Fin

noncomputable section

namespace Cert.Bridge

open Idealize.ShloMosaic

/-- Row `p` of block `t`: the blocks are 20 consecutive runs of 5000 rows. -/
def rowOf (t : Fin 20) (p : Fin 5000) : Fin 100000 := ⟨5000 * t.val + p.val, by omega⟩

/-- The linear part of the layer at node `r`, channel `j` (the weights are used transposed: `ws j k`). -/
def lin (x nm : Fin 100000 → Fin 128 → EReal) (ws wn : Fin 128 → Fin 128 → EReal) (bs bn : Fin 128 → EReal)
    (r : Fin 100000) (j : Fin 128) : EReal :=
  (∑ k : Fin 128, x r k * ws j k) + bs j + (∑ k : Fin 128, nm r k * wn j k) + bn j

/-- What block `t` adds to a sum over the rows (nothing past the twentieth block). -/
def blockSum (f : Fin 100000 → EReal) (t : ℕ) : EReal :=
  if h : t < 20 then ∑ p : Fin 5000, f (rowOf ⟨t, h⟩ p) else 0

/-- A sum over the rows as it stands after blocks `0 … n` have been added. -/
def accSum (f : Fin 100000 → EReal) (n : ℕ) : EReal := ∑ t ∈ Finset.range (n + 1), blockSum f t

/-- The number of rows, N = 100000, as the programs spell it. -/
def cnt : EReal := Ideal.ofBits .f32 0x47C35000#32
/-- The variance offset ε as the programs spell it. -/
def eps : EReal := Ideal.ofBits .f32 0x3727C5AC#32

/-- Channel mean, from the blockwise sum. -/
def mean (o : Fin 100000 → Fin 128 → EReal) (j : Fin 128) : EReal :=
  Ideal.div (accSum (fun r => o r j) 19) cnt
/-- Channel variance as mean of squares minus square of the mean. -/
def var (o : Fin 100000 → Fin 128 → EReal) (j : Fin 128) : EReal :=
  Ideal.div (accSum (fun r => o r j * o r j) 19) cnt - mean o j * mean o j
/-- 1 / sqrt (variance + ε). -/
def invStd (o : Fin 100000 → Fin 128 → EReal) (j : Fin 128) : EReal := Ideal.rsqrt (var o j + eps)

/-- Normalise, scale, shift, clamp at zero. -/
def norm (o : Fin 100000 → Fin 128 → EReal) (g b : Fin 128 → EReal) (r : Fin 100000) (j : Fin 128) : EReal :=
  max ((o r j - mean o j) * invStd o j * g j + b j) 0

/-- The whole layer. -/
def layer (x nm : Fin 100000 → Fin 128 → EReal) (ws wn : Fin 128 → Fin 128 → EReal) (bs bn g b : Fin 128 → EReal)
    (r : Fin 100000) (j : Fin 128) : EReal :=
  norm (lin x nm ws wn bs bn) g b r j

end Cert.Bridge

end
-- ==== Proof.Stage1.lean ====
/-
  The first tiled stage as functions of its input arrays.

  Its grid has 20 points; point t takes rows 5000·t … 5000·t + 4999 of the features x and of the neighbour means nb,
  the two 128×128 weight arrays and the two 1×128 bias rows whole, and
    · writes rows 5000·t … of the linear part  lin[r,j] = (Σ_k x[r,k]·ws[k,j]) + bs[0,j] + (Σ_k nb[r,k]·wn[k,j]) + bn[0,j];
    · keeps two running 1×128 rows, reset at point 0: the column sums of lin and of lin², each point adding its block's
      column sums; they are written back once, after point 19.
  So the first output array ends at lin, and the two rows at the sums over all rows taken block by block.
-/
import proofs.«115379_j62526133895859_1_alg».proof.Proof.Gen.KernelIdeal.Frame
import proofs.«115379_j62526133895859_1_alg».proof.Proof.Payload
import proofs.«115379_j62526133895859_1_alg».proof.Proof.Spec
import Idealize.ShloMosaic.Lib.Pipeline.Value
import Idealize.ShloMosaic.Lib.Tactic

set_option maxRecDepth 16384

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-! ## What one run of the body leaves in the three output buffers -/

theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x4 x3 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x4 x3 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outB8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x4 x3 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x4 x3 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

/-- At the first point the running sum is reset, then read back and added to. -/
theorem outA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x4 x3 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

theorem outA8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x4 x3 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread,
    View.ld_unit_zero (S := S5000x128) hz, View.ld_unit_zero (S := S128x128) hz, View.ld_unit_zero (S := S1x128) hz]

/-! ## The blocks, read where the windows put them -/

variable (V : (c : Dev nD) → (b : Ref sig .tc) → Buf (Elt Ideal) ((c : Thread nD τ).loc b))

theorem lt20 (t : Fin cfg0.N) : t.val < 20 := lt_of_lt_of_eq t.isLt (show cfg0.N = 20 from N_0)

/-- The index maps over the grid: the row-tiled windows (features, neighbour means, linear part) sit at block (t, 0),
    every other window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_6.index t (0 : Fin 2) = t.val ∧ win0_6.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem emb0 (t : Fin cfg0.N) (p : Fin 5000) (q : Fin 128) :
    ((cfg0.win 0).blk t).view.emb (ix2 p q) = (ix2 (Cert.Bridge.rowOf ⟨t.val, lt20 t⟩ p) q : S100000x128.Idx) := by
  obtain ⟨⟨e0, e1⟩, -⟩ := idx_facts t
  funext a; apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega
theorem emb1 (t : Fin cfg0.N) (p : Fin 5000) (q : Fin 128) :
    ((cfg0.win 1).blk t).view.emb (ix2 p q) = (ix2 (Cert.Bridge.rowOf ⟨t.val, lt20 t⟩ p) q : S100000x128.Idx) := by
  obtain ⟨-, ⟨e0, e1⟩, -⟩ := idx_facts t
  funext a; apply Fin.ext
  match a with
  | ⟨0, _⟩ => show win0_1.index t (0 : Fin 2) * 5000 + 1 * p.val = 5000 * t.val + p.val; omega
  | ⟨1, _⟩ => show win0_1.index t (1 : Fin 2) * 128 + 1 * q.val = q.val; omega
theorem emb6 (t : Fin cfg0.N) (p : Fin 5000) (q : Fin 128) :
    ((cfg0.win 6).blk t).view.emb (ix2 p q) = (ix2 (Cert.Bridge.rowOf ⟨t.val, lt20 t⟩ p) q : S100000x128.Idx) := by
  obtain ⟨-, -, ⟨e0, e1⟩, -⟩ := idx_facts t
  funext a; apply Fin.ext
  match a with
  | ⟨0, _⟩ => show win0_6.index t (0 : Fin 2) * 5000 + 1 * p.val = 5000 * t.val + p.val; omega
  | ⟨1, _⟩ => show win0_6.index t (1 : Fin 2) * 128 + 1 * q.val = q.val; omega
theorem emb2 (t : Fin cfg0.N) (k q : Fin 128) : ((cfg0.win 2).blk t).view.emb (ix2 k q) = (ix2 k q : S128x128.Idx) := by
  obtain ⟨-, -, -, ⟨e0, e1⟩, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega
theorem emb4 (t : Fin cfg0.N) (k q : Fin 128) : ((cfg0.win 4).blk t).view.emb (ix2 k q) = (ix2 k q : S128x128.Idx) := by
  obtain ⟨-, -, -, -, -, ⟨e0, e1⟩, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega
theorem emb3 (t : Fin cfg0.N) (q : Fin 128) : ((cfg0.win 3).blk t).view.emb (ix2 0 q) = (ix2 0 q : S1x128.Idx) := by
  obtain ⟨-, -, -, -, ⟨e0, e1⟩, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * q.val = q.val; omega
theorem emb5 (t : Fin cfg0.N) (q : Fin 128) : ((cfg0.win 5).blk t).view.emb (ix2 0 q) = (ix2 0 q : S1x128.Idx) := by
  obtain ⟨-, -, -, -, -, -, ⟨e0, e1⟩, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * q.val = q.val; omega
theorem emb7 (t : Fin cfg0.N) (q : Fin 128) : ((cfg0.win 7).blk t).view.emb (ix2 0 q) = (ix2 0 q : S1x128.Idx) := by
  obtain ⟨-, -, -, -, -, -, -, ⟨e0, e1⟩, -⟩ := idx_facts t
  funext a; apply Fin.ext
  match a with
  | ⟨0, _⟩ => show win0_7.index t (0 : Fin 2) * 1 + 1 * 0 = 0; omega
  | ⟨1, _⟩ => show win0_7.index t (1 : Fin 2) * 128 + 1 * q.val = q.val; omega
theorem emb8 (t : Fin cfg0.N) (q : Fin 128) : ((cfg0.win 8).blk t).view.emb (ix2 0 q) = (ix2 0 q : S1x128.Idx) := by
  obtain ⟨-, -, -, -, -, -, -, -, ⟨e0, e1⟩⟩ := idx_facts t
  funext a; apply Fin.ext
  match a with
  | ⟨0, _⟩ => show win0_8.index t (0 : Fin 2) * 1 + 1 * 0 = 0; omega
  | ⟨1, _⟩ => show win0_8.index t (1 : Fin 2) * 128 + 1 * q.val = q.val; omega

/-! ## The linear part -/

/-- One entry of the linear part from a row of features, a row of neighbour means, two weight columns and two biases. -/
def lin4 (xr nr wsc wnc : Fin 128 → EReal) (bs bn : EReal) : EReal :=
  (∑ k : Fin 128, xr k * wsc k) + bs + (∑ k : Fin 128, nr k * wnc k) + bn

/-- The linear part of the whole arrays as the stage finds them, at row r and channel j. -/
def linE (c : Dev nD) (r : Fin 100000) (j : Fin 128) : EReal :=
  lin4 (fun k => V c main_arg0 (ix2 r k)) (fun k => V c main_v22 (ix2 r k)) (fun k => V c main_v23 (ix2 k j))
    (fun k => V c main_v24 (ix2 k j)) (V c main_v25 (ix2 0 j)) (V c main_v26 (ix2 0 j))

theorem pay_lin4 (x nb : Vec Ideal S5000x128 .f32) (ws wn : Vec Ideal S128x128 .f32) (bs bn : Vec Ideal S1x128 .f32) (p : Fin 5000) (q : Fin 128) :
    k0_pay4 x nb ws wn bs bn (ix2 p q)
      = lin4 (fun k => x (ix2 p k)) (fun k => nb (ix2 p k)) (fun k => ws (ix2 k q)) (fun k => wn (ix2 k q)) (bs (ix2 0 q)) (bn (ix2 0 q)) :=
  Cert.KernelIdeal.Payload.lin_apply x nb ws wn bs bn p q

/-- The block's linear part at point t. -/
abbrev blkLin (c : Dev nD) (t : Fin cfg0.N) : FVec Ideal S5000x128 .f32 :=
  k0_pay4 (iblk0 V c 0 t) (iblk0 V c 1 t) (iblk0 V c 2 t) (iblk0 V c 4 t) (iblk0 V c 3 t) (iblk0 V c 5 t)

/-- Row p of point t's block of the linear part is row 5000·t + p of the whole arrays' linear part. -/
theorem blkLin_apply (c : Dev nD) (t : Fin cfg0.N) (p : Fin 5000) (q : Fin 128) :
    blkLin V c t (ix2 p q) = linE V c (Cert.Bridge.rowOf ⟨t.val, lt20 t⟩ p) q := by
  refine (pay_lin4 (iblk0 V c 0 t) (iblk0 V c 1 t) (iblk0 V c 2 t) (iblk0 V c 4 t) (iblk0 V c 3 t) (iblk0 V c 5 t) p q).trans ?_
  show lin4 (fun k => V c main_arg0 (((cfg0.win 0).blk t).view.emb (ix2 p k))) (fun k => V c main_v22 (((cfg0.win 1).blk t).view.emb (ix2 p k)))
      (fun k => V c main_v23 (((cfg0.win 2).blk t).view.emb (ix2 k q))) (fun k => V c main_v24 (((cfg0.win 4).blk t).view.emb (ix2 k q)))
      (V c main_v25 (((cfg0.win 3).blk t).view.emb (ix2 0 q))) (V c main_v26 (((cfg0.win 5).blk t).view.emb (ix2 0 q))) = _
  have e0 : (fun k : Fin 128 => V c main_arg0 (((cfg0.win 0).blk t).view.emb (ix2 p k)))
      = fun k : Fin 128 => V c main_arg0 (ix2 (Cert.Bridge.rowOf ⟨t.val, lt20 t⟩ p) k) := funext fun k => by rw [emb0]
  have e1 : (fun k : Fin 128 => V c main_v22 (((cfg0.win 1).blk t).view.emb (ix2 p k)))
      = fun k : Fin 128 => V c main_v22 (ix2 (Cert.Bridge.rowOf ⟨t.val, lt20 t⟩ p) k) := funext fun k => by rw [emb1]
  have e2 : (fun k : Fin 128 => V c main_v23 (((cfg0.win 2).blk t).view.emb (ix2 k q)))
      = fun k : Fin 128 => V c main_v23 (ix2 k q) := funext fun k => by rw [emb2]
  have e4 : (fun k : Fin 128 => V c main_v24 (((cfg0.win 4).blk t).view.emb (ix2 k q)))
      = fun k : Fin 128 => V c main_v24 (ix2 k q) := funext fun k => by rw [emb4]
  rw [e0, e1, e2, e4, emb3, emb5]
  rfl

/-! ## The three buffers after each point -/

/-- At the first point: the block's linear part; the two sums started from zero. -/
theorem fstA (c : Dev nD) (t : Fin cfg0.N) (h0 : t.val % 20 = 0) : (outsAt0 V c t.val t.isLt).1 = blkLin V c t := by
  rw [outsAt0_A V c t h0]
  dsimp only
  exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
theorem sumA (c : Dev nD) (t : Fin cfg0.N) (h0 : t.val % 20 = 0) :
    (outsAt0 V c t.val t.isLt).2.1 = k0_pay5 (iblk0 V c 0 t) (iblk0 V c 1 t) (iblk0 V c 2 t) (iblk0 V c 4 t) (iblk0 V c 3 t) (iblk0 V c 5 t) (k0_pay2 (F := Ideal)) := by
  rw [outsAt0_A V c t h0]
  dsimp only
  exact outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
theorem sqA (c : Dev nD) (t : Fin cfg0.N) (h0 : t.val % 20 = 0) :
    (outsAt0 V c t.val t.isLt).2.2 = k0_pay1 (blkLin V c t) (k0_pay3 (F := Ideal)) := by
  rw [outsAt0_A V c t h0]
  dsimp only
  exact outA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- At a later point: the block's linear part; the two sums continued from what the point before left. -/
theorem fstB (c : Dev nD) (t : Fin cfg0.N) (h0 : ¬t.val % 20 = 0) : (outsAt0 V c t.val t.isLt).1 = blkLin V c t := by
  rw [outsAt0_B V c t h0]
  dsimp only
  exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
theorem sumB (c : Dev nD) (t : Fin cfg0.N) (h0 : ¬t.val % 20 = 0) :
    (outsAt0 V c t.val t.isLt).2.1 = k0_pay5 (iblk0 V c 0 t) (iblk0 V c 1 t) (iblk0 V c 2 t) (iblk0 V c 4 t) (iblk0 V c 3 t) (iblk0 V c 5 t) (outsAt0 V c (t.val - 1) (Nat.lt_of_le_of_lt (Nat.sub_le _ _) t.isLt)).2.1 := by
  rw [outsAt0_B V c t h0]
  dsimp only
  exact outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
theorem sqB (c : Dev nD) (t : Fin cfg0.N) (h0 : ¬t.val % 20 = 0) :
    (outsAt0 V c t.val t.isLt).2.2 = k0_pay1 (blkLin V c t) (outsAt0 V c (t.val - 1) (Nat.lt_of_le_of_lt (Nat.sub_le _ _) t.isLt)).2.2 := by
  rw [outsAt0_B V c t h0]
  dsimp only
  exact outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

theorem first_eq (c : Dev nD) (t : Fin cfg0.N) : (outsAt0 V c t.val t.isLt).1 = blkLin V c t := by
  by_cases h0 : t.val % 20 = 0
  · exact fstA V c t h0
  · exact fstB V c t h0

/-! ## The running sums, by induction on the point -/

theorem acc_zero (f : Fin 100000 → EReal) : Cert.Bridge.accSum f 0 = ∑ p : Fin 5000, f (Cert.Bridge.rowOf ⟨0, by omega⟩ p) := by
  unfold Cert.Bridge.accSum
  rw [Finset.sum_range_one]
  unfold Cert.Bridge.blockSum
  rw [dif_pos (by omega)]

theorem acc_succ (f : Fin 100000 → EReal) (n : ℕ) (h : n + 1 < 20) :
    Cert.Bridge.accSum f (n + 1) = Cert.Bridge.accSum f n + ∑ p : Fin 5000, f (Cert.Bridge.rowOf ⟨n + 1, h⟩ p) := by
  unfold Cert.Bridge.accSum
  rw [Finset.sum_range_succ]
  congr 1
  unfold Cert.Bridge.blockSum
  rw [dif_pos h]

/-- After point n the two running rows hold the sums, over blocks 0 … n, of the linear part and of its square. -/
theorem sums_eq (c : Dev nD) : ∀ (n : ℕ) (h : n < cfg0.N) (q : Fin 128),
    (outsAt0 V c n h).2.1 (ix2 0 q) = Cert.Bridge.accSum (fun r => linE V c r q) n
    ∧ (outsAt0 V c n h).2.2 (ix2 0 q) = Cert.Bridge.accSum (fun r => linE V c r q * linE V c r q) n
  | 0, h, q => by
    constructor
    · refine (congrFun (sumA V c ⟨0, h⟩ rfl) (ix2 0 q)).trans ?_
      refine (Cert.KernelIdeal.Payload.sum_apply (iblk0 V c 0 ⟨0, h⟩) (iblk0 V c 1 ⟨0, h⟩) (iblk0 V c 2 ⟨0, h⟩) (iblk0 V c 4 ⟨0, h⟩) (iblk0 V c 3 ⟨0, h⟩) (iblk0 V c 5 ⟨0, h⟩) (k0_pay2 (F := Ideal)) q).trans ?_
      rw [Cert.KernelIdeal.Payload.zero2, zero_add, acc_zero]
      exact Finset.sum_congr rfl fun p _ => blkLin_apply V c ⟨0, h⟩ p q
    · refine (congrFun (sqA V c ⟨0, h⟩ rfl) (ix2 0 q)).trans ?_
      refine (Cert.KernelIdeal.Payload.sumsq_apply (blkLin V c ⟨0, h⟩) (k0_pay3 (F := Ideal)) q).trans ?_
      rw [Cert.KernelIdeal.Payload.zero3, zero_add, acc_zero]
      exact Finset.sum_congr rfl fun p _ => congrArg₂ (· * ·) (blkLin_apply V c ⟨0, h⟩ p q) (blkLin_apply V c ⟨0, h⟩ p q)
  | n + 1, h, q => by
    have hN : cfg0.N = 20 := N_0
    have hB : ¬(⟨n + 1, h⟩ : Fin cfg0.N).val % 20 = 0 := by dsimp only; omega
    obtain ⟨ih1, ih2⟩ := sums_eq c n (by omega) q
    constructor
    · refine (congrFun (sumB V c ⟨n + 1, h⟩ hB) (ix2 0 q)).trans ?_
      refine (Cert.KernelIdeal.Payload.sum_apply (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (iblk0 V c 5 ⟨n + 1, h⟩) _ q).trans ?_
      show (outsAt0 V c n _).2.1 (ix2 0 q) + _ = _
      rw [ih1, acc_succ _ n (by omega)]
      exact congrArg _ (Finset.sum_congr rfl fun p _ => blkLin_apply V c ⟨n + 1, h⟩ p q)
    · refine (congrFun (sqB V c ⟨n + 1, h⟩ hB) (ix2 0 q)).trans ?_
      refine (Cert.KernelIdeal.Payload.sumsq_apply (blkLin V c ⟨n + 1, h⟩) _ q).trans ?_
      show (outsAt0 V c n _).2.2 (ix2 0 q) + _ = _
      rw [ih2, acc_succ _ n (by omega)]
      exact congrArg _ (Finset.sum_congr rfl fun p _ => congrArg₂ (· * ·) (blkLin_apply V c ⟨n + 1, h⟩ p q) (blkLin_apply V c ⟨n + 1, h⟩ p q))

/-! ## The three output arrays after the stage -/

/-- The linear part as an array. -/
def linArr (c : Dev nD) : S100000x128.Idx → EReal := fun i => linE V c (i 0) (i 1)
/-- The blockwise column sums of the linear part, as a 1×128 row. -/
def sumArr (c : Dev nD) : S1x128.Idx → EReal := fun i => Cert.Bridge.accSum (fun r => linE V c r (i 1)) 19
/-- The blockwise column sums of its square. -/
def sqArr (c : Dev nD) : S1x128.Idx → EReal := fun i => Cert.Bridge.accSum (fun r => linE V c r (i 1) * linE V c r (i 1)) 19

theorem flushed6 (c : Dev nD) (t : Fin cfg0.N) :
    (dat0 V c).flushed 6 t = ((cfg0.win 6).blk t).view.read (Elt Ideal) (linArr V c) := by
  show (cfg0.win 6).cut (grid0.coords t) ((dat0 V c).after 6 t) = _
  rw [after0_6, first_eq]
  funext j
  obtain ⟨p, q, rfl⟩ : ∃ (p : Fin 5000) (q : Fin 128), j = ix2 p q := ⟨j 0, j 1, eq_ix2 j⟩
  refine (blkLin_apply V c t p q).trans ?_
  show _ = linArr V c (((cfg0.win 6).blk t).view.emb (ix2 p q))
  rw [emb6]
  rfl

theorem flushed7 (c : Dev nD) (t : Fin cfg0.N) (hf : (cfg0.win 7).flush t = true) :
    (dat0 V c).flushed 7 t = ((cfg0.win 7).blk t).view.read (Elt Ideal) (sumArr V c) := by
  have h19 : t.val = 19 := by have := (flush0_7 t).mp hf; have := lt20 t; omega
  show (cfg0.win 7).cut (grid0.coords t) ((dat0 V c).after 7 t) = _
  rw [after0_7]
  funext j
  obtain ⟨p, q, rfl⟩ : ∃ (p : Fin 1) (q : Fin 128), j = ix2 p q := ⟨j 0, j 1, eq_ix2 j⟩
  obtain rfl : p = 0 := Subsingleton.elim _ _
  refine ((sums_eq V c t.val t.isLt q).1).trans ?_
  show _ = sumArr V c (((cfg0.win 7).blk t).view.emb (ix2 0 q))
  rw [emb7, h19]
  rfl

theorem flushed8 (c : Dev nD) (t : Fin cfg0.N) (hf : (cfg0.win 8).flush t = true) :
    (dat0 V c).flushed 8 t = ((cfg0.win 8).blk t).view.read (Elt Ideal) (sqArr V c) := by
  have h19 : t.val = 19 := by have := (flush0_8 t).mp hf; have := lt20 t; omega
  show (cfg0.win 8).cut (grid0.coords t) ((dat0 V c).after 8 t) = _
  rw [after0_8]
  funext j
  obtain ⟨p, q, rfl⟩ : ∃ (p : Fin 1) (q : Fin 128), j = ix2 p q := ⟨j 0, j 1, eq_ix2 j⟩
  obtain rfl : p = 0 := Subsingleton.elim _ _
  refine ((sums_eq V c t.val t.isLt q).2).trans ?_
  show _ = sqArr V c (((cfg0.win 8).blk t).view.emb (ix2 0 q))
  rw [emb8, h19]
  rfl

theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27_0).slice (win0_6.rect t)).set ↔ _
  rw [View.set_slice_whole, Rect.mem_set_unit]
  exact Iff.rfl
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v27_1).slice (win0_7.rect t)).set ↔ _
  rw [View.set_slice_whole, Rect.mem_set_unit]
  exact Iff.rfl
theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v27_2).slice (win0_8.rect t)).set ↔ _
  rw [View.set_slice_whole, Rect.mem_set_unit]
  exact Iff.rfl

/-- Every block of rows is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-- The last point. -/
def lastPt : Fin cfg0.N := ⟨19, by rw [show cfg0.N = 20 from N_0]; decide⟩

/-- The first output array ends at the linear part. -/
theorem final6 (c : Dev nD) : (dat0 V c).arrAt 6 cfg0.N = linArr V c :=
  (dat0 V c).arrAt_eq_of_cover 6 _ (fun t _ => flushed6 V c t) fun i => by
    have hi0 : (i 0).val < 100000 := (i 0).isLt
    have hi1 : (i 1).val < 128 := (i 1).isLt
    obtain ⟨t, ht⟩ := idx_onto ⟨(i 0).val / 5000, by omega⟩
    have q0 : win0_6.index t (0 : Fin 2) = (i 0).val / 5000 := congrFun ht 0
    have q1 : win0_6.index t (1 : Fin 2) = 0 := congrFun ht 1
    refine ⟨t, flush0_6 t, ?_⟩
    rw [mem_blk6]
    intro a
    match a with
    | ⟨0, _⟩ => show win0_6.index t (0 : Fin 2) * 5000 ≤ (i 0).val ∧ (i 0).val < win0_6.index t (0 : Fin 2) * 5000 + 5000; omega
    | ⟨1, _⟩ => show win0_6.index t (1 : Fin 2) * 128 ≤ (i 1).val ∧ (i 1).val < win0_6.index t (1 : Fin 2) * 128 + 128; omega

/-- The second ends at the blockwise column sums of the linear part … -/
theorem final7 (c : Dev nD) : (dat0 V c).arrAt 7 cfg0.N = sumArr V c :=
  (dat0 V c).arrAt_eq_of_cover 7 _ (fun t hf => flushed7 V c t hf) fun i => by
    have hi0 : (i 0).val < 1 := (i 0).isLt
    have hi1 : (i 1).val < 128 := (i 1).isLt
    obtain ⟨-, -, -, -, -, -, -, ⟨e0, e1⟩, -⟩ := idx_facts lastPt
    refine ⟨lastPt, (flush0_7 lastPt).mpr rfl, ?_⟩
    rw [mem_blk7]
    intro a
    match a with
    | ⟨0, _⟩ => show win0_7.index lastPt (0 : Fin 2) * 1 ≤ (i 0).val ∧ (i 0).val < win0_7.index lastPt (0 : Fin 2) * 1 + 1; omega
    | ⟨1, _⟩ => show win0_7.index lastPt (1 : Fin 2) * 128 ≤ (i 1).val ∧ (i 1).val < win0_7.index lastPt (1 : Fin 2) * 128 + 128; omega

/-- … and the third at those of its square. -/
theorem final8 (c : Dev nD) : (dat0 V c).arrAt 8 cfg0.N = sqArr V c :=
  (dat0 V c).arrAt_eq_of_cover 8 _ (fun t hf => flushed8 V c t hf) fun i => by
    have hi0 : (i 0).val < 1 := (i 0).isLt
    have hi1 : (i 1).val < 128 := (i 1).isLt
    obtain ⟨-, -, -, -, -, -, -, -, ⟨e0, e1⟩⟩ := idx_facts lastPt
    refine ⟨lastPt, (flush0_8 lastPt).mpr rfl, ?_⟩
    rw [mem_blk8]
    intro a
    match a with
    | ⟨0, _⟩ => show win0_8.index lastPt (0 : Fin 2) * 1 ≤ (i 0).val ∧ (i 0).val < win0_8.index lastPt (0 : Fin 2) * 1 + 1; omega
    | ⟨1, _⟩ => show win0_8.index lastPt (1 : Fin 2) * 128 ≤ (i 1).val ∧ (i 1).val < win0_8.index lastPt (1 : Fin 2) * 128 + 128; omega

end Cert.KernelIdeal.Stage1

end
-- ==== Proof.Stage2.lean ====
/-
  The second tiled stage as one function of its input arrays.

  Its grid has 20 points; point t handles rows 5000·t … 5000·t + 4999 of the 100000×128 array v and writes the same
  rows of the output; the four 1×128 rows (mean, reciprocal standard deviation, scale, shift) are the same block at
  every point.  So the output array ends, at every (r, q), at
      max ((v[r,q] − mu[0,q])·is[0,q]·g[0,q] + b[0,q]) 0.
-/
import proofs.«115379_j62526133895859_1_alg».proof.Proof.Gen.KernelIdeal.Frame
import proofs.«115379_j62526133895859_1_alg».proof.Proof.Payload
import proofs.«115379_j62526133895859_1_alg».proof.Proof.Spec
import Idealize.ShloMosaic.Lib.Pipeline.Value

set_option maxRecDepth 16384

noncomputable section

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Normalise, scale, shift, clamp: one entry. -/
def nrm (v mu is g b : EReal) : EReal := max ((v - mu) * is * g + b) 0

/-- The stage's arithmetic at (p, q) of a block. -/
theorem pay_nrm (x0 : Vec Ideal S5000x128 .f32) (x1 x2 x3 x4 : Vec Ideal S1x128 .f32) (p : Fin 5000) (q : Fin 128) :
    k1_pay1 x0 x1 x2 x3 x4 (ix2 p q) = nrm (x0 (ix2 p q)) (x1 (ix2 0 q)) (x2 (ix2 0 q)) (x3 (ix2 0 q)) (x4 (ix2 0 q)) :=
  Cert.KernelIdeal.Payload.norm_apply x0 x1 x2 x3 x4 p q

/-- The normalised, clamped value at an index of the whole array. -/
def G (v : S100000x128.Idx → EReal) (mu is g b : S1x128.Idx → EReal) : S100000x128.Idx → EReal := fun i =>
  nrm (v i) (mu (ix2 0 (i 1))) (is (ix2 0 (i 1))) (g (ix2 0 (i 1))) (b (ix2 0 (i 1)))

/-- The index maps over the grid: the row-tiled windows sit at block (t, 0), the four rows at block (0, 0). -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lt20 (t : Fin cfg1.N) : t.val < 20 := lt_of_lt_of_eq t.isLt (show cfg1.N = 20 from N_1)

/-- Row p of point t's block of a row-tiled window is row 5000·t + p of the array. -/
theorem emb0 (t : Fin cfg1.N) (p : Fin 5000) (q : Fin 128) :
    ((cfg1.win 0).blk t).view.emb (ix2 p q) = (ix2 (Cert.Bridge.rowOf ⟨t.val, lt20 t⟩ p) q : S100000x128.Idx) := by
  obtain ⟨e0, e1, -⟩ := idx_facts t
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

theorem emb5 (t : Fin cfg1.N) (p : Fin 5000) (q : Fin 128) :
    ((cfg1.win 5).blk t).view.emb (ix2 p q) = (ix2 (Cert.Bridge.rowOf ⟨t.val, lt20 t⟩ p) q : S100000x128.Idx) := by
  obtain ⟨-, -, e0, e1, -⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

theorem emb1 (t : Fin cfg1.N) (q : Fin 128) : ((cfg1.win 1).blk t).view.emb (ix2 0 q) = (ix2 0 q : S1x128.Idx) := by
  obtain ⟨-, -, -, -, e0, e1, -⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega
theorem emb2 (t : Fin cfg1.N) (q : Fin 128) : ((cfg1.win 2).blk t).view.emb (ix2 0 q) = (ix2 0 q : S1x128.Idx) := by
  obtain ⟨-, -, -, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem emb3 (t : Fin cfg1.N) (q : Fin 128) : ((cfg1.win 3).blk t).view.emb (ix2 0 q) = (ix2 0 q : S1x128.Idx) := by
  obtain ⟨-, -, -, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem emb4 (t : Fin cfg1.N) (q : Fin 128) : ((cfg1.win 4).blk t).view.emb (ix2 0 q) = (ix2 0 q : S1x128.Idx) := by
  obtain ⟨-, -, -, -, -, -, -, -, -, -, e0, e1⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- What point t writes back is block t of `G` of the arrays as the stage finds them. -/
theorem flushed_eq (c : Dev nD) (t : Fin cfg1.N) :
    (dat1 V c).flushed 5 t = ((cfg1.win 5).blk t).view.read (Elt Ideal)
      (G (V c main_v27_0) (V c main_v39) (V c main_v40) (V c main_v41) (V c main_v42)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay_nrm (iblk1 V c 0 t) (iblk1 V c 1 t) (iblk1 V c 2 t) (iblk1 V c 3 t) (iblk1 V c 4 t) p q).trans ?_
  show nrm (V c main_v27_0 (((cfg1.win 0).blk t).view.emb (ix2 p q))) (V c main_v39 (((cfg1.win 1).blk t).view.emb (ix2 0 q)))
        (V c main_v40 (((cfg1.win 2).blk t).view.emb (ix2 0 q))) (V c main_v41 (((cfg1.win 3).blk t).view.emb (ix2 0 q)))
        (V c main_v42 (((cfg1.win 4).blk t).view.emb (ix2 0 q)))
      = G (V c main_v27_0) (V c main_v39) (V c main_v40) (V c main_v41) (V c main_v42) (((cfg1.win 5).blk t).view.emb (ix2 p q))
  rw [emb0, emb1, emb2, emb3, emb4, emb5]
  rfl

/-- Membership in point t's output block, coordinate by coordinate. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every block of rows is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The output array after the stage. -/
theorem final (c : Dev nD) :
    (dat1 V c).arrAt 5 cfg1.N = G (V c main_v27_0) (V c main_v39) (V c main_v40) (V c main_v41) (V c main_v42) :=
  (dat1 V c).arrAt_eq_of_cover 5 _ (fun t _ => flushed_eq V c t) fun i => by
    have hi0 : (i 0).val < 100000 := (i 0).isLt
    have hi1 : (i 1).val < 128 := (i 1).isLt
    obtain ⟨t, ht⟩ := idx_onto ⟨(i 0).val / 5000, by omega⟩
    have q0 : win1_5.index t (0 : Fin 2) = (i 0).val / 5000 := congrFun ht 0
    have q1 : win1_5.index t (1 : Fin 2) = 0 := congrFun ht 1
    refine ⟨t, flush1_5 t, ?_⟩
    rw [mem_blk]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 128 ≤ (i 1).val ∧ (i 1).val < win1_5.index t (1 : Fin 2) * 128 + 128; omega

end Cert.KernelIdeal.Stage2

end
-- ==== Proof.HostK.lean ====
/-
  What the host operations of the kernel program leave in the arrays its two tiled stages read.

  Before the first stage: the node features are the argument; the neighbour mean is the same expression of the
  arguments as the reference's; the two weight matrices are transposed; the two biases are viewed as rows [1,128].
  Between the stages: from the first stage's per-channel sums S₁ = Σ lin and S₂ = Σ lin², the mean S₁/N and
  rsqrt(S₂/N − (S₁/N)² + ε), and γ, β viewed as rows; the linear part itself is left as the first stage wrote it.
-/
import proofs.«115379_j62526133895859_1_alg».proof.Proof.Gen.KernelIdeal.Frame
import proofs.«115379_j62526133895859_1_alg».proof.Proof.Gen.ReferenceIdeal.Read
import proofs.«115379_j62526133895859_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostK

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

theorem V1_arg0 : V1 m ρ c main_arg0 = m ((c : Thread nD τ).loc main_arg0) := by
  dsimp only [V1, W1, hostOps0]
  after_results_simp

theorem V1_wsT_eq : (V1 m ρ c main_v23 : S128x128.Idx → EReal) = transpose S128x128 [1, 0] (m ((c : Thread nD τ).loc main_arg2)) transposes_S128x128_S128x128_1_0 := by
  dsimp only [V1, W1, hostOps0]
  after_results_simp

theorem V1_wsT (k j : Fin 128) : (V1 m ρ c main_v23 (ix2 k j) : EReal) = m ((c : Thread nD τ).loc main_arg2) (ix2 j k) :=
  (congrFun (V1_wsT_eq m ρ c) (ix2 k j)).trans (transpose_ix2_apply _ _ k j)

theorem V1_wnT_eq : (V1 m ρ c main_v24 : S128x128.Idx → EReal) = transpose S128x128 [1, 0] (m ((c : Thread nD τ).loc main_arg4)) transposes_S128x128_S128x128_1_0 := by
  dsimp only [V1, W1, hostOps0]
  after_results_simp

theorem V1_wnT (k j : Fin 128) : (V1 m ρ c main_v24 (ix2 k j) : EReal) = m ((c : Thread nD τ).loc main_arg4) (ix2 j k) :=
  (congrFun (V1_wnT_eq m ρ c) (ix2 k j)).trans (transpose_ix2_apply _ _ k j)

theorem V1_bs_eq : (V1 m ρ c main_v25 : S1x128.Idx → EReal) = shapeCast S1x128 (m ((c : Thread nD τ).loc main_arg3)) shapeCasts_S128_S1x128 := by
  dsimp only [V1, W1, hostOps0]
  after_results_simp
  rfl

theorem V1_bs (j : Fin 128) : (V1 m ρ c main_v25 (ix2 0 j) : EReal) = m ((c : Thread nD τ).loc main_arg3) (ix1 j) :=
  (congrFun (V1_bs_eq m ρ c) (ix2 0 j)).trans (shapeCast_a_1a_apply _ _ 0 j)

theorem V1_bn_eq : (V1 m ρ c main_v26 : S1x128.Idx → EReal) = shapeCast S1x128 (m ((c : Thread nD τ).loc main_arg5)) shapeCasts_S128_S1x128 := by
  dsimp only [V1, W1, hostOps0]
  after_results_simp
  rfl

theorem V1_bn (j : Fin 128) : (V1 m ρ c main_v26 (ix2 0 j) : EReal) = m ((c : Thread nD τ).loc main_arg5) (ix1 j) :=
  (congrFun (V1_bn_eq m ρ c) (ix2 0 j)).trans (shapeCast_a_1a_apply _ _ 0 j)

theorem V3_pre : V3 m ρ c main_v27_0 = V2 m ρ c main_v27_0 := by
  dsimp only [V3, W3, V2, hostOps1]
  after_results_simp

/-- An argument the first stage does not write is, at its exit, as launched. -/
theorem W2_arg6 : W2 m ρ c (Proc.devRef .tc main_arg6) = m ((c : Thread nD τ).loc main_arg6) :=
  (W2_of_ne m ρ c main_arg6 (by decide)).trans (by dsimp only [W1, hostOps0]; after_results_simp)
theorem W2_arg7 : W2 m ρ c (Proc.devRef .tc main_arg7) = m ((c : Thread nD τ).loc main_arg7) :=
  (W2_of_ne m ρ c main_arg7 (by decide)).trans (by dsimp only [W1, hostOps0]; after_results_simp)

theorem V3_gamma_eq : (V3 m ρ c main_v41 : S1x128.Idx → EReal) = shapeCast S1x128 (m ((c : Thread nD τ).loc main_arg6)) shapeCasts_S128_S1x128 := by
  dsimp only [V3, W3, hostOps1]
  after_results_simp
  rw [W2_arg6]
  rfl

theorem V3_gamma (j : Fin 128) : (V3 m ρ c main_v41 (ix2 0 j) : EReal) = m ((c : Thread nD τ).loc main_arg6) (ix1 j) :=
  (congrFun (V3_gamma_eq m ρ c) (ix2 0 j)).trans (shapeCast_a_1a_apply _ _ 0 j)

theorem V3_beta_eq : (V3 m ρ c main_v42 : S1x128.Idx → EReal) = shapeCast S1x128 (m ((c : Thread nD τ).loc main_arg7)) shapeCasts_S128_S1x128 := by
  dsimp only [V3, W3, hostOps1]
  after_results_simp
  rw [W2_arg7]
  rfl

theorem V3_beta (j : Fin 128) : (V3 m ρ c main_v42 (ix2 0 j) : EReal) = m ((c : Thread nD τ).loc main_arg7) (ix1 j) :=
  (congrFun (V3_beta_eq m ρ c) (ix2 0 j)).trans (shapeCast_a_1a_apply _ _ 0 j)

/-- A scalar constant broadcast over the channels reads, at every channel, the constant. -/
theorem bcast_const (bits : BitVec 32) (j : Fin 128) :
    broadcastInDim S128 ![] bcast_S_S128 (constant (F := Ideal) S_ .f32 bits) (ix1 j) = Ideal.ofBits .f32 bits := rfl

theorem V3_mean_eq : (V3 m ρ c main_v39 : S1x128.Idx → EReal) = shapeCast S1x128 (Host.divf (F := Ideal) (shapeCast S128 (V2 m ρ c main_v27_1 : S1x128.Idx → EReal) shapeCasts_S1x128_S128) (broadcastInDim S128 ![] bcast_S_S128 (constant (F := Ideal) S_ .f32 0x47C35000#32))) shapeCasts_S128_S1x128 := by
  dsimp only [V3, W3, V2, hostOps1]
  after_results_simp
  rfl

theorem V3_mean (j : Fin 128) : (V3 m ρ c main_v39 (ix2 0 j) : EReal) = Ideal.div (V2 m ρ c main_v27_1 (ix2 0 j)) Cert.Bridge.cnt := by
  refine (congrFun (V3_mean_eq m ρ c) (ix2 0 j)).trans ((shapeCast_a_1a_apply _ _ 0 j).trans ?_)
  show Ideal.div (shapeCast S128 (V2 m ρ c main_v27_1 : S1x128.Idx → EReal) shapeCasts_S1x128_S128 (ix1 j)) (Ideal.ofBits .f32 0x47C35000#32) = _
  rw [shapeCast_1a_a_apply]
  rfl

theorem V3_invstd_eq : (V3 m ρ c main_v40 : S1x128.Idx → EReal) = shapeCast S1x128 (Host.rsqrt (F := Ideal)
      (addf (subf (Host.divf (F := Ideal) (shapeCast S128 (V2 m ρ c main_v27_2 : S1x128.Idx → EReal) shapeCasts_S1x128_S128) (broadcastInDim S128 ![] bcast_S_S128 (constant (F := Ideal) S_ .f32 0x47C35000#32)))
        (mulf (Host.divf (F := Ideal) (shapeCast S128 (V2 m ρ c main_v27_1 : S1x128.Idx → EReal) shapeCasts_S1x128_S128) (broadcastInDim S128 ![] bcast_S_S128 (constant (F := Ideal) S_ .f32 0x47C35000#32)))
          (Host.divf (F := Ideal) (shapeCast S128 (V2 m ρ c main_v27_1 : S1x128.Idx → EReal) shapeCasts_S1x128_S128) (broadcastInDim S128 ![] bcast_S_S128 (constant (F := Ideal) S_ .f32 0x47C35000#32)))))
        (broadcastInDim S128 ![] bcast_S_S128 (constant (F := Ideal) S_ .f32 0x3727C5AC#32)))) shapeCasts_S128_S1x128 := by
  dsimp only [V3, W3, V2, hostOps1]
  after_results_simp
  rfl

theorem V3_invstd (j : Fin 128) : (V3 m ρ c main_v40 (ix2 0 j) : EReal) = Ideal.rsqrt (Ideal.div (V2 m ρ c main_v27_2 (ix2 0 j)) Cert.Bridge.cnt - Ideal.div (V2 m ρ c main_v27_1 (ix2 0 j)) Cert.Bridge.cnt * Ideal.div (V2 m ρ c main_v27_1 (ix2 0 j)) Cert.Bridge.cnt + Cert.Bridge.eps) := by
  refine (congrFun (V3_invstd_eq m ρ c) (ix2 0 j)).trans ((shapeCast_a_1a_apply _ _ 0 j).trans ?_)
  show Ideal.rsqrt (Ideal.div (shapeCast S128 (V2 m ρ c main_v27_2 : S1x128.Idx → EReal) shapeCasts_S1x128_S128 (ix1 j)) (Ideal.ofBits .f32 0x47C35000#32)
      - Ideal.div (shapeCast S128 (V2 m ρ c main_v27_1 : S1x128.Idx → EReal) shapeCasts_S1x128_S128 (ix1 j)) (Ideal.ofBits .f32 0x47C35000#32)
        * Ideal.div (shapeCast S128 (V2 m ρ c main_v27_1 : S1x128.Idx → EReal) shapeCasts_S1x128_S128 (ix1 j)) (Ideal.ofBits .f32 0x47C35000#32)
      + Ideal.ofBits .f32 0x3727C5AC#32) = _
  rw [shapeCast_1a_a_apply, shapeCast_1a_a_apply]
  rfl

theorem V1_nbr : (V1 m ρ c main_v22 : S100000x128.Idx → EReal) = Cert.ReferenceIdeal.Read.val_main_v22 (F := Ideal) (m ((c : Thread nD τ).loc main_arg0)) (m ((c : Thread nD τ).loc main_arg1)) := by
  dsimp only [V1, W1, hostOps0]
  after_results_simp
  rfl

end Cert.KernelIdeal.HostK

end
-- ==== Proof.KValue.lean ====
/-
  The two-stage program's result as the layer of Spec.lean.

  The first stage leaves the linear part lin of the features, the neighbour means and the (transposed) weights and
  biases, and the blockwise column sums of lin and lin²; the host operations between the stages turn the sums into the
  mean S1/N and the reciprocal standard deviation rsqrt(S2/N − mean² + ε); the second stage normalises, scales,
  shifts and clamps.  Read through the host operations before the first stage (transposes, reshapes, the neighbour
  mean), that is `layer` of the argument arrays.
-/
import proofs.«115379_j62526133895859_1_alg».proof.Proof.Stage1
import proofs.«115379_j62526133895859_1_alg».proof.Proof.Stage2
import proofs.«115379_j62526133895859_1_alg».proof.Proof.HostK
import proofs.«115379_j62526133895859_1_alg».proof.Proof.Spec

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The argument arrays as curried functions of row / channel numbers. -/
abbrev X : Fin 100000 → Fin 128 → EReal := fun r k => m ((c : Thread nD τ).loc main_arg0) (ix2 r k)
abbrev NM : Fin 100000 → Fin 128 → EReal := fun r k =>
  Cert.ReferenceIdeal.Read.val_main_v22 (F := Ideal) (m ((c : Thread nD τ).loc main_arg0)) (m ((c : Thread nD τ).loc main_arg1)) (ix2 r k)
abbrev WS : Fin 128 → Fin 128 → EReal := fun j k => m ((c : Thread nD τ).loc main_arg2) (ix2 j k)
abbrev WN : Fin 128 → Fin 128 → EReal := fun j k => m ((c : Thread nD τ).loc main_arg4) (ix2 j k)
abbrev BS : Fin 128 → EReal := fun j => m ((c : Thread nD τ).loc main_arg3) (ix1 j)
abbrev BN : Fin 128 → EReal := fun j => m ((c : Thread nD τ).loc main_arg5) (ix1 j)
abbrev GM : Fin 128 → EReal := fun j => m ((c : Thread nD τ).loc main_arg6) (ix1 j)
abbrev BT : Fin 128 → EReal := fun j => m ((c : Thread nD τ).loc main_arg7) (ix1 j)

/-- The first stage's linear part, read through the host operations before it, is `lin` of the arguments. -/
theorem linE_eq : Stage1.linE (V1 m ρ) c = Cert.Bridge.lin (X m c) (NM m c) (WS m c) (WN m c) (BS m c) (BN m c) := by
  funext r j
  unfold Stage1.linE Stage1.lin4 Cert.Bridge.lin
  refine congrArg₂ (· + ·) (congrArg₂ (· + ·) (congrArg₂ (· + ·) (Finset.sum_congr rfl fun k _ => ?_) (HostK.V1_bs m ρ c j))
    (Finset.sum_congr rfl fun k _ => ?_)) (HostK.V1_bn m ρ c j)
  · exact congrArg₂ (· * ·) (congrFun (HostK.V1_arg0 m ρ c) (ix2 r k)) (HostK.V1_wsT m ρ c k j)
  · exact congrArg₂ (· * ·) (congrFun (HostK.V1_nbr m ρ c) (ix2 r k)) (HostK.V1_wnT m ρ c k j)

/-- What the first stage leaves, as the second finds it. -/
theorem pre_eq : V2 m ρ c main_v27_0 = Stage1.linArr (V1 m ρ) c := (hF0 m ρ c 6).symm.trans (Stage1.final6 (V1 m ρ) c)
theorem sum_eq : V2 m ρ c main_v27_1 = Stage1.sumArr (V1 m ρ) c := (hF0 m ρ c 7).symm.trans (Stage1.final7 (V1 m ρ) c)
theorem sq_eq : V2 m ρ c main_v27_2 = Stage1.sqArr (V1 m ρ) c := (hF0 m ρ c 8).symm.trans (Stage1.final8 (V1 m ρ) c)

/-- The result array after the run. -/
theorem result_eq : (dat1 (V3 m ρ) c).arrAt 5 cfg1.N
    = fun i : S100000x128.Idx => Cert.Bridge.layer (X m c) (NM m c) (WS m c) (WN m c) (BS m c) (BN m c) (GM m c) (BT m c) (i 0) (i 1) := by
  rw [Stage2.final (V3 m ρ) c]
  funext i
  obtain ⟨r, j, rfl⟩ : ∃ (r : Fin 100000) (j : Fin 128), i = ix2 r j := ⟨i 0, i 1, eq_ix2 i⟩
  show Stage2.nrm (V3 m ρ c main_v27_0 (ix2 r j)) (V3 m ρ c main_v39 (ix2 0 j)) (V3 m ρ c main_v40 (ix2 0 j))
      (V3 m ρ c main_v41 (ix2 0 j)) (V3 m ρ c main_v42 (ix2 0 j))
    = Cert.Bridge.layer (X m c) (NM m c) (WS m c) (WN m c) (BS m c) (BN m c) (GM m c) (BT m c) r j
  rw [HostK.V3_mean, HostK.V3_invstd, HostK.V3_gamma, HostK.V3_beta, HostK.V3_pre, pre_eq, sum_eq, sq_eq]
  unfold Stage1.linArr Stage1.sumArr Stage1.sqArr
  rw [linE_eq]
  rfl

end Cert.KernelIdeal.Whole

end
-- ==== Proof.Algebra.lean ====
/-
  The algebra behind the two ways of normalising over the rows.

  (i)   Adding the rows up in 20 blocks of 5000 is adding all 100000 rows: the extended reals are a commutative
        additive monoid, and (t, p) ↦ 5000·t + p is a bijection from 20 × 5000 onto the rows.
  (ii)  The row count as the programs spell it is the real number 100000.
  (iii) On real-valued data, (Σ a²)/N − μ² = (Σ (a − μ)²)/N with μ = (Σ a)/N and N the number of rows.  This needs
        real values: the extended reals have ±∞, where subtraction does not cancel.
  (iv)  The linear part of the layer is real-valued when its inputs are.
-/
import proofs.«115379_j62526133895859_1_alg».proof.Proof.Spec
import Mathlib.Algebra.BigOperators.Fin
import Mathlib.Tactic

noncomputable section

namespace Cert.Bridge

open Idealize.ShloMosaic

/-! ## (i) The blockwise sum is the sum over all rows -/

/-- Blocks × positions are the rows. -/
def rowEquiv : Fin 20 × Fin 5000 ≃ Fin 100000 where
  toFun q := rowOf q.1 q.2
  invFun r := (⟨r.val / 5000, by have := r.isLt; omega⟩, ⟨r.val % 5000, by omega⟩)
  left_inv q := by
    obtain ⟨t, p⟩ := q
    have ht := t.isLt
    have hp := p.isLt
    refine Prod.ext (Fin.ext ?_) (Fin.ext ?_)
    · show (5000 * t.val + p.val) / 5000 = t.val
      omega
    · show (5000 * t.val + p.val) % 5000 = p.val
      omega
  right_inv r := by
    refine Fin.ext ?_
    show 5000 * (r.val / 5000) + r.val % 5000 = r.val
    omega

/-- After all twenty blocks the running sum is the sum over every row. -/
theorem accSum_full (f : Fin 100000 → EReal) : accSum f 19 = ∑ r : Fin 100000, f r := by
  unfold accSum
  rw [Finset.sum_range (fun t => blockSum f t)]
  have hb : ∀ t : Fin 20, blockSum f t.val = ∑ p : Fin 5000, f (rowOf t p) := by
    intro t
    unfold blockSum
    rw [dif_pos t.isLt]
  rw [Finset.sum_congr rfl (fun t _ => hb t), ← Fintype.sum_prod_type' (fun t p => f (rowOf t p))]
  exact Equiv.sum_comp rowEquiv f

/-! ## (ii) The row count -/

/-- The programs' literal for the number of rows denotes the real number 100000. -/
theorem cnt_eq : cnt = ((100000 : ℝ) : EReal) := by
  unfold cnt
  simp [Ideal.ofBits, Ideal.ieee, -EReal.coe_mul]; norm_num

/-! ## Real-valued extended reals -/

/-- An extended real that is a real number. -/
def IsReal (e : EReal) : Prop := ∃ y : ℝ, e = (y : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of coerced reals is the coercion of the real sum. -/
theorem coe_sum {ι : Type*} (s : Finset ι) (a : ι → ℝ) :
    (∑ i ∈ s, (a i : EReal)) = ((∑ i ∈ s, a i : ℝ) : EReal) := by
  classical
  induction s using Finset.induction_on with
  | empty => simp
  | insert i s hi ih => rw [Finset.sum_insert hi, Finset.sum_insert hi, ih, EReal.coe_add]

theorem IsReal.sum {ι : Type*} (s : Finset ι) (f : ι → EReal) (hf : ∀ i, IsReal (f i)) : IsReal (∑ i ∈ s, f i) := by
  choose a ha using hf
  exact ⟨∑ i ∈ s, a i, by rw [← coe_sum]; exact Finset.sum_congr rfl fun i _ => ha i⟩

/-! ## (iv) The linear part is real-valued on real-valued inputs -/

theorem lin_isReal (x nm : Fin 100000 → Fin 128 → EReal) (ws wn : Fin 128 → Fin 128 → EReal) (bs bn : Fin 128 → EReal)
    (hx : ∀ r k, IsReal (x r k)) (hnm : ∀ r k, IsReal (nm r k)) (hws : ∀ j k, IsReal (ws j k)) (hwn : ∀ j k, IsReal (wn j k))
    (hbs : ∀ j, IsReal (bs j)) (hbn : ∀ j, IsReal (bn j)) (r : Fin 100000) (j : Fin 128) :
    IsReal (lin x nm ws wn bs bn r j) := by
  unfold lin
  exact (((IsReal.sum _ _ fun k => (hx r k).mul (hws j k)).add (hbs j)).add
    (IsReal.sum _ _ fun k => (hnm r k).mul (hwn j k))).add (hbn j)

/-! ## (iii) Mean of squares minus squared mean is the mean squared deviation -/

/-- Over the reals, with N = 100000 terms. -/
theorem real_var (a : Fin 100000 → ℝ) :
    (∑ r, a r * a r) * (1 / 100000) - (∑ r, a r) * (1 / 100000) * ((∑ r, a r) * (1 / 100000))
      = (∑ r, (a r - (∑ r, a r) * (1 / 100000)) * (a r - (∑ r, a r) * (1 / 100000))) * (1 / 100000) := by
  set s : ℝ := ∑ r, a r with hs
  set m : ℝ := s * (1 / 100000) with hm
  have h1 : ∑ r, (a r - m) * (a r - m) = (∑ r, a r * a r) - 2 * m * s + 100000 * (m * m) := by
    have e : ∀ r, (a r - m) * (a r - m) = a r * a r - 2 * m * a r + m * m := fun r => by ring
    rw [Finset.sum_congr rfl fun r _ => e r, Finset.sum_add_distrib, Finset.sum_sub_distrib, ← Finset.mul_sum,
      Finset.sum_const, Finset.card_univ, Fintype.card_fin, nsmul_eq_mul, ← hs, Nat.cast_ofNat]
  rw [h1, hm]
  ring

/-- The channel mean is the sum over all rows divided by the row count. -/
theorem mean_eq (o : Fin 100000 → Fin 128 → EReal) (j : Fin 128) :
    mean o j = Ideal.div (∑ r : Fin 100000, o r j) cnt := by
  unfold mean
  rw [accSum_full]

/-- On real-valued data the channel variance is the mean squared deviation from the channel mean. -/
theorem var_eq (o : Fin 100000 → Fin 128 → EReal) (j : Fin 128) (ho : ∀ r, IsReal (o r j)) :
    var o j = Ideal.div (∑ r : Fin 100000, (o r j - mean o j) * (o r j - mean o j)) cnt := by
  choose a ha using ho
  have hN : (100000 : ℝ) ≠ 0 := by norm_num
  have hmean : mean o j = (((∑ r, a r) * (1 / 100000) : ℝ) : EReal) := by
    rw [mean_eq, cnt_eq, Ideal.div_coe hN, Finset.sum_congr rfl fun r _ => ha r, coe_sum, ← EReal.coe_mul]
  unfold var
  rw [accSum_full, hmean, cnt_eq, Ideal.div_coe hN, Ideal.div_coe hN]
  have e1 : ∀ r, o r j * o r j = ((a r * a r : ℝ) : EReal) := fun r => by rw [ha r, EReal.coe_mul]
  have e2 : ∀ r, (o r j - (((∑ r, a r) * (1 / 100000) : ℝ) : EReal)) * (o r j - (((∑ r, a r) * (1 / 100000) : ℝ) : EReal))
      = (((a r - (∑ r, a r) * (1 / 100000)) * (a r - (∑ r, a r) * (1 / 100000)) : ℝ) : EReal) := fun r => by
    rw [ha r, ← EReal.coe_sub, ← EReal.coe_mul]
  rw [Finset.sum_congr rfl fun r _ => e1 r, Finset.sum_congr rfl fun r _ => e2 r, coe_sum, coe_sum,
    ← EReal.coe_mul, ← EReal.coe_mul, ← EReal.coe_mul, ← EReal.coe_sub, real_var]

end Cert.Bridge

end
-- ==== Proof.RefBridge.lean ====
/-
  The reference program computes the specification.

  Reading the reference one operation at a time: its linear part is `lin`; its channel mean is the sum of the linear
  part over all rows divided by the row count; its channel variance is the mean squared deviation from that mean; its
  result is max((lin − mean) · rsqrt(variance + ε) · γ + β, 0).  The specification sums the rows in blocks and takes the
  variance as mean of squares minus squared mean; on real-valued data the two agree (Algebra.lean).
-/
import proofs.«115379_j62526133895859_1_alg».proof.Proof.Algebra
import proofs.«115379_j62526133895859_1_alg».proof.Proof.Spec
import proofs.«115379_j62526133895859_1_alg».proof.Proof.Gen.ReferenceIdeal.Read
import Idealize.ShloMosaic.Lib.ValueIdx

noncomputable section

namespace Cert.Bridge

open Idealize.ShloMosaic Idealize.ShloMosaic.ValueIdx Cert.ReferenceIdeal Cert.ReferenceIdeal.Read

/-! ## The reference's index maps on coordinates -/

theorem lidx24 (r : Fin 100000) (j k : Fin 128) : lidx_main_v24 (ix2 r j) k = ix2 r k :=
  funext fun a => by match a with | ⟨0, _⟩ => rfl | ⟨1, _⟩ => rfl
theorem ridx24 (r : Fin 100000) (j k : Fin 128) : idx_main_v23 (ridx_main_v24 (ix2 r j) k) = ix2 j k :=
  funext fun a => by match a with | ⟨0, _⟩ => rfl | ⟨1, _⟩ => rfl
theorem lidx29 (r : Fin 100000) (j k : Fin 128) : lidx_main_v29 (ix2 r j) k = ix2 r k :=
  funext fun a => by match a with | ⟨0, _⟩ => rfl | ⟨1, _⟩ => rfl
theorem ridx29 (r : Fin 100000) (j k : Fin 128) : idx_main_v28 (ridx_main_v29 (ix2 r j) k) = ix2 j k :=
  funext fun a => by match a with | ⟨0, _⟩ => rfl | ⟨1, _⟩ => rfl
theorem idx26 (r : Fin 100000) (j : Fin 128) : idx_main_v25 (idx_main_v26 (ix2 r j)) = ix1 j :=
  funext fun a => by match a with | ⟨0, _⟩ => rfl
theorem idx32 (r : Fin 100000) (j : Fin 128) : idx_main_v31 (idx_main_v32 (ix2 r j)) = ix1 j :=
  funext fun a => by match a with | ⟨0, _⟩ => rfl
theorem idx34 (j : Fin 128) (r : Fin 100000) : idx_main_v34 (ix1 j) r = ix2 r j :=
  funext fun a => by match a with | ⟨0, _⟩ => rfl | ⟨1, _⟩ => rfl
theorem idx41 (j : Fin 128) (r : Fin 100000) : idx_main_v41 (ix1 j) r = ix2 r j :=
  funext fun a => by match a with | ⟨0, _⟩ => rfl | ⟨1, _⟩ => rfl
theorem idx38 (r : Fin 100000) (j : Fin 128) : idx_main_v37 (idx_main_v38 (ix2 r j)) = ix1 j :=
  funext fun a => by match a with | ⟨0, _⟩ => rfl
theorem idx45 (r : Fin 100000) (j : Fin 128) : idx_main_v44 (idx_main_v45 (ix2 r j)) = ix1 j :=
  funext fun a => by match a with | ⟨0, _⟩ => rfl
theorem idx51 (r : Fin 100000) (j : Fin 128) : idx_main_v50 (idx_main_v51 (ix2 r j)) = ix1 j :=
  funext fun a => by match a with | ⟨0, _⟩ => rfl
theorem idx54 (r : Fin 100000) (j : Fin 128) : idx_main_v53 (idx_main_v54 (ix2 r j)) = ix1 j :=
  funext fun a => by match a with | ⟨0, _⟩ => rfl
theorem idx57 (r : Fin 100000) (j : Fin 128) : idx_main_v56 (idx_main_v57 (ix2 r j)) = ix1 j :=
  funext fun a => by match a with | ⟨0, _⟩ => rfl

section
variable (x0 : (⟨S100000x128, .f32⟩ : BufTy).Contents (Elt Ideal)) (x1 : (⟨S2x1600000, .i32⟩ : BufTy).Contents (Elt Ideal))
  (x2 x4 : (⟨S128x128, .f32⟩ : BufTy).Contents (Elt Ideal)) (x3 x5 x6 x7 : (⟨S128, .f32⟩ : BufTy).Contents (Elt Ideal))

/-- The reference's linear part is `lin`. -/
theorem v33_eq (r : Fin 100000) (j : Fin 128) :
    val_main_v33 (F := Ideal) x0 x1 x2 x3 x4 x5 (ix2 r j)
      = lin (fun r k => x0 (ix2 r k)) (fun r k => val_main_v22 (F := Ideal) x0 x1 (ix2 r k))
          (fun j k => x2 (ix2 j k)) (fun j k => x4 (ix2 j k)) (fun j => x3 (ix1 j)) (fun j => x5 (ix1 j)) r j := by
  rw [val_main_v33_apply, val_main_v30_apply, val_main_v27_apply, val_main_v24_apply, val_main_v29_apply,
    val_main_v26_apply, val_main_v25_apply, val_main_v32_apply, val_main_v31_apply]
  simp only [val_main_v23_apply, val_main_v28_apply, Ideal.addf_def, lidx24, ridx24, lidx29, ridx29, idx26, idx32]
  rfl

/-- The reference's channel mean is the sum of its linear part over all rows, divided by the row count. -/
theorem v36_eq (j : Fin 128) :
    val_main_v36 (F := Ideal) x0 x1 x2 x3 x4 x5 (ix1 j)
      = Ideal.div (∑ r : Fin 100000, val_main_v33 (F := Ideal) x0 x1 x2 x3 x4 x5 (ix2 r j)) cnt := by
  rw [val_main_v36_apply, val_main_v34_apply, val_main_v35_apply, val_main_cst_5_apply, val_main_cst_4_apply]
  simp only [Ideal.hostDivf_def, Ideal.ofBits_def, Ideal.ofBits_zero_f32, zero_add, idx34]
  rfl

/-- The reference's channel variance is the mean squared deviation of its linear part from its channel mean. -/
theorem v43_eq (j : Fin 128) :
    val_main_v43 (F := Ideal) x0 x1 x2 x3 x4 x5 (ix1 j)
      = Ideal.div (∑ r : Fin 100000,
          (val_main_v33 (F := Ideal) x0 x1 x2 x3 x4 x5 (ix2 r j) - val_main_v36 (F := Ideal) x0 x1 x2 x3 x4 x5 (ix1 j))
            * (val_main_v33 (F := Ideal) x0 x1 x2 x3 x4 x5 (ix2 r j) - val_main_v36 (F := Ideal) x0 x1 x2 x3 x4 x5 (ix1 j))) cnt := by
  rw [val_main_v43_apply, val_main_v41_apply, val_main_v42_apply, val_main_cst_7_apply, val_main_cst_6_apply]
  simp only [Ideal.hostDivf_def, Ideal.ofBits_def, Ideal.ofBits_zero_f32, zero_add, idx41, val_main_v40_apply,
    val_main_v39_apply, val_main_v38_apply, val_main_v37_apply, idx38, Ideal.mulf_def, Ideal.subf_def]
  rfl

/-- The reference's result: normalise its linear part, scale, shift, clamp at zero. -/
theorem v59_eq (r : Fin 100000) (j : Fin 128) :
    val_main_v59 (F := Ideal) x0 x1 x2 x3 x4 x5 x6 x7 (ix2 r j)
      = max ((val_main_v33 (F := Ideal) x0 x1 x2 x3 x4 x5 (ix2 r j) - val_main_v36 (F := Ideal) x0 x1 x2 x3 x4 x5 (ix1 j))
            * Ideal.rsqrt (val_main_v43 (F := Ideal) x0 x1 x2 x3 x4 x5 (ix1 j) + eps) * x6 (ix1 j) + x7 (ix1 j)) 0 := by
  rw [val_main_v59_apply, val_main_v58_apply, val_main_v55_apply, val_main_v52_apply, val_main_v46_apply,
    val_main_v45_apply, val_main_v44_apply, val_main_v51_apply, val_main_v50_apply, val_main_v49_apply,
    val_main_v48_apply, val_main_v47_apply, val_main_cst_8_apply, val_main_v54_apply, val_main_v53_apply,
    val_main_v57_apply, val_main_v56_apply, val_main_call0_v0_apply, val_main_call0_cst_apply]
  simp only [Ideal.maximumf_def, Ideal.addf_def, Ideal.mulf_def, Ideal.subf_def, Ideal.hostUnary_rsqrt_def,
    Ideal.ofBits_def, Ideal.ofBits_zero_f32, idx45, idx51, idx54, idx57]
  rfl

end

theorem ref_eq_layer (x0 : (⟨S100000x128, .f32⟩ : BufTy).Contents (Elt Ideal)) (x1 : (⟨S2x1600000, .i32⟩ : BufTy).Contents (Elt Ideal))
    (x2 x4 : (⟨S128x128, .f32⟩ : BufTy).Contents (Elt Ideal)) (x3 x5 x6 x7 : (⟨S128, .f32⟩ : BufTy).Contents (Elt Ideal))
    (h0 : ∀ i, ∃ r : ℝ, x0 i = (r : EReal)) (hnm : ∀ i, ∃ r : ℝ, Cert.ReferenceIdeal.Read.val_main_v22 (F := Ideal) x0 x1 i = (r : EReal))
    (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) :
    Cert.ReferenceIdeal.Read.val_main_v59 (F := Ideal) x0 x1 x2 x3 x4 x5 x6 x7
      = fun i => layer (fun r k => x0 (ix2 r k)) (fun r k => Cert.ReferenceIdeal.Read.val_main_v22 (F := Ideal) x0 x1 (ix2 r k))
          (fun j k => x2 (ix2 j k)) (fun j k => x4 (ix2 j k)) (fun j => x3 (ix1 j)) (fun j => x5 (ix1 j)) (fun j => x6 (ix1 j)) (fun j => x7 (ix1 j)) (i 0) (i 1) := by
  funext i
  obtain ⟨r, j, rfl⟩ : ∃ (r : Fin 100000) (j : Fin 128), i = ix2 r j := ⟨i 0, i 1, eq_ix2 i⟩
  show _ = layer _ _ _ _ _ _ _ _ r j
  have hreal : ∀ r : Fin 100000, IsReal (lin (fun r k => x0 (ix2 r k)) (fun r k => val_main_v22 (F := Ideal) x0 x1 (ix2 r k))
      (fun j k => x2 (ix2 j k)) (fun j k => x4 (ix2 j k)) (fun j => x3 (ix1 j)) (fun j => x5 (ix1 j)) r j) := fun r =>
    lin_isReal _ _ _ _ _ _ (fun r k => h0 _) (fun r k => hnm _) (fun j k => h2 _) (fun j k => h4 _) (fun j => h3 _) (fun j => h5 _) r j
  rw [v59_eq, v43_eq, v36_eq]
  simp only [v33_eq]
  unfold layer norm invStd
  rw [var_eq _ j hreal, mean_eq]
-- ==== Proof.Finite.lean ====
/-
  Real-valuedness.

  Over the extended reals the two programs agree only where no infinity and no junk value enters the arithmetic, so
  the algebra is done on real numbers. Two facts put it there.

  `inputs_real`: the precondition is the conjunction, over the seven float inputs a, of all (|a| < +∞); an extended real
  whose absolute value max(a, −a) lies below +∞ is neither +∞ nor −∞, hence a real number.

  `nbr_real`: the neighbour mean of real features is real. Each gathered entry is an entry of the features; the
  segment sum at a node is 0 plus a finite sum of gathered entries, and a finite sum of reals is real; the neighbour
  count is 0 plus a finite sum of ones, so max(count, 1) is a real ≥ 1, in particular nonzero; and a real divided by
  a nonzero real is real.
-/
import proofs.«115379_j62526133895859_1_alg».proof.Proof.Gen.ReferenceIdeal.Read
import proofs.«115379_j62526133895859_1_alg».proof.Pre_finite_inputs
import Idealize.ShloMosaic.Lib.ReduceAll
import Idealize.ShloMosaic.PureOps.Ideal
import Idealize.ShloMosaic.PureOps.Ideal.Laws

noncomputable section

namespace Cert.Bridge

open Idealize.ShloMosaic Cert.ReferenceIdeal

/-! ## Real-valued extended reals are closed under the operations the neighbour mean uses -/

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of reals is real. -/
theorem real_sum {ι : Type} (s : Finset ι) (f : ι → EReal) (h : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    rw [Finset.sum_insert ha]
    exact real_add (h a (Finset.mem_insert_self a s)) (ih fun j hj => h j (Finset.mem_insert_of_mem hj))

/-- Every entry of a scatter-add of real updates into a real operand is real: it is the operand's entry plus a
    finite sum of update entries. -/
theorem real_scatterAdd {s si u : Shape} {w : Nat} {φ : FTy} (d : ScatterDims s si u) (x : FVec Ideal s φ)
    (idx : IVec si w) (upd : FVec Ideal u φ) (hx : ∀ i, ∃ r : ℝ, x i = (r : EReal))
    (hu : ∀ j, ∃ r : ℝ, upd j = (r : EReal)) :
    ∀ i, ∃ r : ℝ, Host.scatterAdd d x idx upd i = (r : EReal) := by
  intro i
  show ∃ r : ℝ, Ideal.hostScatterAdd d x idx upd i = (r : EReal)
  unfold Ideal.hostScatterAdd
  exact real_add (hx i) (real_sum _ _ fun j _ => hu j)

/-- The quotient of a real by a real that is at least one is real. -/
theorem real_div {x y : EReal} (hx : ∃ r : ℝ, x = (r : EReal)) (hy : ∃ r : ℝ, 1 ≤ r ∧ y = (r : EReal)) :
    ∃ r : ℝ, Ideal.div x y = (r : EReal) := by
  obtain ⟨a, rfl⟩ := hx
  obtain ⟨b, hb, rfl⟩ := hy
  have hb0 : b ≠ 0 := by intro h0; rw [h0] at hb; norm_num at hb
  exact ⟨a * (1 / b), by rw [Ideal.div_coe hb0, EReal.coe_mul]⟩

/-- The larger of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [← EReal.coe_one]; exact (EReal.coe_strictMono.monotone.map_max).symm⟩

/-! ## The neighbour mean -/

/-- The pattern the programs spell one with is the real number one. -/
theorem ofBits_one_f32 : Ideal.ofBits .f32 0x3F800000#32 = 1 := by
  simp [Ideal.ofBits, Ideal.ieee]
  rw [← EReal.coe_mul, ← EReal.coe_one]
  congr 1
  norm_num

section
variable (x0 : (⟨S100000x128, .f32⟩ : BufTy).Contents (Elt Ideal)) (x1 : (⟨S2x1600000, .i32⟩ : BufTy).Contents (Elt Ideal))

/-- The gathered neighbour rows are real: each entry is an entry of the features. -/
theorem gathered_real (hx0 : ∀ i, ∃ r : ℝ, x0 i = (r : EReal)) :
    ∀ j, ∃ r : ℝ, Read.val_main_v10 (F := Ideal) x0 x1 j = (r : EReal) := by
  intro j
  unfold Read.val_main_v10 Host.gather
  exact hx0 _

/-- The sum of each node's neighbours' rows is real: zero plus a finite sum of gathered entries. -/
theorem segsum_real (hx0 : ∀ i, ∃ r : ℝ, x0 i = (r : EReal)) :
    ∀ i, ∃ r : ℝ, Read.val_main_v13 (F := Ideal) x0 x1 i = (r : EReal) := by
  unfold Read.val_main_v13
  refine real_scatterAdd _ _ _ _ ?_ (gathered_real x0 x1 hx0)
  intro i
  rw [Read.val_main_v11_apply, Read.val_main_cst_apply]
  exact ⟨0, by rw [Ideal.ofBits_def, Ideal.ofBits_zero_f32, EReal.coe_zero]⟩

/-- The number of neighbours of each node is real: zero plus a finite sum of ones. -/
theorem count_real : ∀ n, ∃ r : ℝ, Read.val_main_v17 (F := Ideal) x1 n = (r : EReal) := by
  unfold Read.val_main_v17
  refine real_scatterAdd _ _ _ _ ?_ ?_
  · intro i
    rw [Read.val_main_v15_apply, Read.val_main_cst_2_apply]
    exact ⟨0, by rw [Ideal.ofBits_def, Ideal.ofBits_zero_f32, EReal.coe_zero]⟩
  · intro j
    rw [Read.val_main_v14_apply, Read.val_main_cst_1_apply]
    exact ⟨1, by rw [Ideal.ofBits_def, ofBits_one_f32, EReal.coe_one]⟩

/-- The divisor, max(count, 1) spread along the channels, is a real that is at least one. -/
theorem degree_real : ∀ i, ∃ r : ℝ, 1 ≤ r ∧ Read.val_main_v21 (F := Ideal) x1 i = (r : EReal) := by
  intro i
  rw [Read.val_main_v21_apply, Read.val_main_v20_apply, Read.val_main_v19_apply, Read.val_main_v18_apply,
    Read.val_main_cst_3_apply, Ideal.ofBits_def, ofBits_one_f32]
  exact real_max_one (count_real x1 _)

/-- the neighbour mean of real-valued features is real-valued -/
theorem nbr_real (hx0 : ∀ i, ∃ r : ℝ, x0 i = (r : EReal)) :
    ∀ i, ∃ r : ℝ, Cert.ReferenceIdeal.Read.val_main_v22 (F := Ideal) x0 x1 i = (r : EReal) := by
  intro i
  rw [Read.val_main_v22_apply]
  exact real_div (segsum_real x0 x1 hx0 i) (degree_real x1 i)

end

/-! ## The precondition -/

/-- The pattern the precondition compares against is +∞. -/
theorem ofBits_inf_f32 : Ideal.ofBits .f32 0x7F800000#32 = ⊤ := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A rank-0 array has one index. -/
instance finite_subsingleton_scalarIdx : Subsingleton Cert.Pre_finite_inputs.S_.Idx := ⟨fun a b => funext fun d => d.elim0⟩

/-- `all (|a| < +∞) = true` says every entry of `a` is a real. -/
theorem real_of_all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi
        (cmpf .olt (Host.absf (F := Ideal) a)
          (broadcastInDim s ![] hb (constant (F := Ideal) Cert.Pre_finite_inputs.S_ .f32 0x7F800000#32)))
        (constantI Cert.Pre_finite_inputs.S_ 1 1#1) hr hS ValueIdx.ix0 = 1#1) :
    ∀ i, ∃ r : ℝ, a i = (r : EReal) := by
  intro i
  have h1 := Host.reduce_andi_all _ _ hr hS ValueIdx.ix0 e i
  have h2 : Ideal.cmp .olt (max (a i) (-(a i))) (Ideal.ofBits .f32 0x7F800000#32) = 1#1 := h1
  rw [ofBits_inf_f32] at h2
  refine real_of_abs_lt_top (a i) ?_
  unfold Ideal.cmp at h2
  by_contra hlt
  simp [hlt] at h2

/-- the precondition says every float input is real-valued -/
theorem inputs_real [Cert.Pre_finite_inputs.Facts] (a0 : FVec Ideal S100000x128 .f32) (a1 : IVec S2x1600000 32) (a2 : FVec Ideal S128x128 .f32) (a3 : FVec Ideal S128 .f32)
    (a4 : FVec Ideal S128x128 .f32) (a5 a6 a7 : FVec Ideal S128 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1] at h0
  obtain ⟨h6, e7⟩ := IntOp.andi_eq_one.1 h0
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨real_of_all_finite a0 _ _ _ e0, real_of_all_finite a2 _ _ _ e2, real_of_all_finite a3 _ _ _ e3,
    real_of_all_finite a4 _ _ _ e4, real_of_all_finite a5 _ _ _ e5, real_of_all_finite a6 _ _ _ e6,
    real_of_all_finite a7 _ _ _ e7⟩

end Cert.Bridge

end
-- ==== Proof.lean ====
/-
  A graph layer with batch normalisation, computed two ways, is one function on the extended reals.

  Both programs take node features x (100000×128), an edge list, two 128×128 weight arrays, two biases, a scale γ and
  a shift β.  Both first form the neighbour mean nm (sum of the features of each node's neighbours divided by
  max(degree, 1)) with the same host operations, then the linear part
      lin[r,j] = (Σ_k x[r,k]·Ws[j,k]) + bs[j] + (Σ_k nm[r,k]·Wn[j,k]) + bn[j],
  and return max((lin − μ)·rsqrt(σ² + ε)·γ + β, 0) with μ, σ² the mean and variance of each column of lin.

  The tiled program works in two stages of 20 row blocks: the first writes lin and accumulates the column sums of lin
  and lin² block by block, the host turns them into μ = S1/N and σ² = S2/N − μ², the second normalises.  The reference
  sums each column at once and takes σ² = (Σ (lin − μ)²)/N.  The two agree where every entry of lin is a real number:
  then Σ(lin − μ)² = Σ lin² − N·μ², and a sum taken block by block is the sum.  The precondition makes every float
  input real-valued; the neighbour mean of real features is real (a finite sum of reals over a real divisor ≥ 1), so
  lin is real.  Stage1 / Stage2 / HostK / KValue read the tiled program's result as `layer` of Spec.lean, RefBridge
  reads the reference's result as the same `layer` (using Algebra), Finite supplies the real-valuedness.
-/
import proofs.«115379_j62526133895859_1_alg».proof.Defs
import proofs.«115379_j62526133895859_1_alg».proof.Proof.Gen.Kernel
import proofs.«115379_j62526133895859_1_alg».proof.Proof.Gen.Kernel.Skeleton
import proofs.«115379_j62526133895859_1_alg».proof.Proof.Gen.Kernel.Launch
import proofs.«115379_j62526133895859_1_alg».proof.Proof.Gen.Kernel.Points
import proofs.«115379_j62526133895859_1_alg».proof.Proof.Gen.Kernel.Frame
import proofs.«115379_j62526133895859_1_alg».proof.Proof.Gen.KernelIdeal
import proofs.«115379_j62526133895859_1_alg».proof.Proof.Gen.KernelIdeal.Skeleton
import proofs.«115379_j62526133895859_1_alg».proof.Proof.Gen.KernelIdeal.Launch
import proofs.«115379_j62526133895859_1_alg».proof.Proof.Gen.KernelIdeal.Points
import proofs.«115379_j62526133895859_1_alg».proof.Proof.Gen.KernelIdeal.Frame
import proofs.«115379_j62526133895859_1_alg».proof.Proof.Gen.ReferenceIdeal
import proofs.«115379_j62526133895859_1_alg».proof.Proof.Gen.Pre_finite_inputs
import proofs.«115379_j62526133895859_1_alg».proof.Proof.Gen.ReferenceIdeal.Run
import proofs.«115379_j62526133895859_1_alg».proof.Proof.Gen.ReferenceIdeal.Read
import proofs.«115379_j62526133895859_1_alg».proof.Proof.KRun
import proofs.«115379_j62526133895859_1_alg».proof.Proof.KValue
import proofs.«115379_j62526133895859_1_alg».proof.Proof.RefBridge
import proofs.«115379_j62526133895859_1_alg».proof.Proof.Finite
import Idealize.ShloMosaic.Adequacy
import Idealize.ShloMosaic.Init

noncomputable section

namespace Cert.Proof

open Idealize.ShloMosaic Idealize.ShloMosaic.TcCoe Idealize.SL.Sem

/-- The three programs run to the end without fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the tiled program and its reading on the extended reals. -/
theorem preserves : Cert.preserves_Kernel_KernelIdeal := trivial

/-- From memories agreeing on the arguments, both programs end with the result at `layer` of the arguments. -/
theorem algebraic : Cert.algebraic_KernelIdeal_ReferenceIdeal := by
  intro m ρ m' ρ' hpre hagree
  refine ⟨fun c => (fun i : Cert.KernelIdeal.S100000x128.Idx =>
      Cert.Bridge.layer (Cert.KernelIdeal.Whole.X m c) (Cert.KernelIdeal.Whole.NM m c) (Cert.KernelIdeal.Whole.WS m c)
        (Cert.KernelIdeal.Whole.WN m c) (Cert.KernelIdeal.Whole.BS m c) (Cert.KernelIdeal.Whole.BN m c)
        (Cert.KernelIdeal.Whole.GM m c) (Cert.KernelIdeal.Whole.BT m c) (i 0) (i 1)), ?_, ?_⟩
  · exact (θ_run Cert.KernelIdeal.defs _ _).mono
      (fun r h c => ⟨(h c).1.trans (Cert.KernelIdeal.Whole.result_eq m ρ c), (h c).2⟩)
      (Cert.KernelIdeal.Run.run (F := Ideal) m ρ)
  · refine (θ_run Cert.ReferenceIdeal.defs _ _).mono (fun _ h c => ⟨?_, (h c).2⟩)
      (Cert.ReferenceIdeal.Value.run (F := Ideal) m' ρ')
    obtain ⟨h0, h2, h3, h4, h5, -, -⟩ := Cert.Bridge.inputs_real _ _ _ _ _ _ _ _ (hpre c)
    rw [(h c).1, Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Bridge.ref_eq_layer _ _ _ _ _ _ _ _ h0 (Cert.Bridge.nbr_real _ _ h0) h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
